-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x5 : Shape := ⟨2, ![128, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg5 : FVec F S128 .f32) (main_arg6 : FVec F S128x5 .f32) (main_arg7 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg6
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg7
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x5 .f32) (main_arg7 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x5 : Shape := ⟨2, ![100000, 5]⟩
abbrev S10000x5 : Shape := ⟨2, ![10000, 5]⟩
abbrev S1700000x5 : Shape := ⟨2, ![1700000, 5]⟩
abbrev S1x5 : Shape := ⟨2, ![1, 5]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x5, .f32⟩
  | .hbm, ⟨7, _⟩ => ⟨S5, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x5, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x5, .f32⟩
  | .hbm, ⟨96, _⟩ => ⟨S1700000x1, .f32⟩
  | .hbm, ⟨97, _⟩ => ⟨S1700000x5, .f32⟩
  | .hbm, ⟨98, _⟩ => ⟨S1700000x5, .f32⟩
  | .hbm, ⟨99, _⟩ => ⟨S_, .f32⟩
  | .hbm, ⟨100, _⟩ => ⟨S100000x5, .f32⟩
  | .hbm, ⟨101, _⟩ => ⟨S1700000x1, .i32⟩
  | .hbm, ⟨102, _⟩ => ⟨S100000x5, .f32⟩
  | .hbm, ⟨103, _⟩ => ⟨S1x5, .f32⟩
  | .hbm, ⟨104, _⟩ => ⟨S100000x5, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x5, .f32⟩
  | .local _ .vmem, ⟨23, _⟩ => ⟨S10000x5, .f32⟩
  | .local _ .vmem, ⟨24, _⟩ => ⟨S10000x5, .f32⟩
  | .local _ .vmem, ⟨25, _⟩ => ⟨S10000x5, .f32⟩
  | .local _ .vmem, ⟨26, _⟩ => ⟨S10000x5, .f32⟩
  | .local _ .vmem, ⟨27, _⟩ => ⟨S1x5, .f32⟩
  | .local _ .vmem, ⟨28, _⟩ => ⟨S10000x5, .f32⟩
  | .local _ .vmem, ⟨29, _⟩ => ⟨S10000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x5 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x5_S128x5_0_0 : ∀ a, (![0, 0] : Fin 2 → Nat) a + S128x5.size a ≤ S128x5.size a
  h_S128x5 : 0 < S128x5.numel
  inb_S10000x5_S10000x5_0_0 : ∀ a, (![0, 0] : Fin 2 → Nat) a + S10000x5.size a ≤ S10000x5.size a
  h_S10000x5 : 0 < S10000x5.numel
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  shapeCasts_S5_S1x5 : S5.ShapeCasts S1x5
  shapeCasts_S10000x5_S10000x5 : S10000x5.ShapeCasts S10000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x5_S10000x5_1_0_0_1_n_n_wf : DotDims.WF S10000x128 S128x5 S10000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x5.size a ≤ S128x5.size a
  hwx4_1 : ∀ i : grid4.Coords, EltTy.bits .f32 = 32 ∨ (Rect.block (s := S128x5) S128x5.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x5.size a ≤ S100000x5.size a
  hwx4_2 : ∀ i : grid4.Coords, EltTy.bits .f32 = 32 ∨ (Rect.block (s := S100000x5) S10000x5.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x5.size a ≤ S100000x5.size a
  hwx5_0 : ∀ i : grid5.Coords, EltTy.bits .f32 = 32 ∨ (Rect.block (s := S100000x5) S10000x5.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x5.size a ≤ S1x5.size a
  hwx5_1 : ∀ i : grid5.Coords, EltTy.bits .f32 = 32 ∨ (Rect.block (s := S1x5) S1x5.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x5.size a ≤ S100000x5.size a
  hwx5_2 : ∀ i : grid5.Coords, EltTy.bits .f32 = 32 ∨ (Rect.block (s := S100000x5) S10000x5.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x5.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x5.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x5.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x5 : Shape := ⟨2, ![100000, 5]⟩
abbrev S1700000x5 : Shape := ⟨2, ![1700000, 5]⟩
abbrev S1x5 : Shape := ⟨2, ![1, 5]⟩

abbrev nBuf : Space → Nat
  | .hbm => 186
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x5, .f32⟩
  | 7 => ⟨S5, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000, .i32⟩
  | 3 => ⟨S1700000, .i32⟩
  | 4 => ⟨S1700000, .i32⟩
  | 5 => ⟨S_, .f32⟩
  | 6 => ⟨S1700000, .f32⟩
  | 7 => ⟨S_, .f32⟩
  | 8 => ⟨S100000, .f32⟩
  | 9 => ⟨S1700000x1, .i32⟩
  | 10 => ⟨S100000, .f32⟩
  | 11 => ⟨S_, .f32⟩
  | 12 => ⟨S100000, .f32⟩
  | 13 => ⟨S100000, .i1⟩
  | 14 => ⟨S100000, .f32⟩
  | 15 => ⟨S_, .f32⟩
  | 16 => ⟨S_, .f32⟩
  | 17 => ⟨S100000, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S100000x5, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x5, .f32⟩
  | 48 => ⟨S1700000x1, .f32⟩
  | 49 => ⟨S1700000x5, .f32⟩
  | 50 => ⟨S1700000x5, .f32⟩
  | 51 => ⟨S_, .f32⟩
  | 52 => ⟨S100000x5, .f32⟩
  | 53 => ⟨S1700000x1, .i32⟩
  | 54 => ⟨S100000x5, .f32⟩
  | 55 => ⟨S1x5, .f32⟩
  | 56 => ⟨S100000x5, .f32⟩
  | 57 => ⟨S100000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_call4_v0 : Ref sig .tc := ⟨.hbm, 144, rfl⟩
abbrev main_call4_v1 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_c_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x5_S100000x5_1_0_0_1_n_n_wf : DotDims.WF S100000x128 S128x5 S100000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«138695_j5523327943291_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«138695_j5523327943291_1_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.LibHiddenLayer.lean ====
/-
  One hidden layer of the network on the extended reals, as whole-array functions of any extents.

  `hidden a b` adds the bias vector `b` to every row of the matrix `a` and takes the maximum with zero, entry by
  entry: entry (p, c) is max (a[p, c] + b[c]) 0. The layer's output is the product of that matrix with the weight
  matrix (`Cert.Product.mm`).

  Two spellings of the activation are both `hidden`:
  * the vector unit's — the bias as a 1×C row repeated down the rows, the zero a splat scalar; here the row is any
    1×C array whose entry (0, c) is b[c];
  * the host's — the bias broadcast to a 1×C row and then down the rows by dimension maps, the zero a rank-0
    constant broadcast over the array.

  An entry of `hidden a b` reads the same entry of `a` and one entry of `b`; so the rows of `hidden a b` that a block
  of rows of `a` gives are that block of rows of `hidden` of the whole matrix (`hidden_congr`).
-/
import proofs.«138695_j5523327943291_1_alg».proof.Proof.LibWholeProduct
import proofs.«138695_j5523327943291_1_alg».proof.Proof.LibLayerOps

noncomputable section

namespace Cert.Layer

open Idealize.ShloMosaic Idealize.ShloMosaic.ValueIdx

/-- relu(a + b): the bias `b` added to every row, then the maximum with zero. -/
def hidden {M C : Nat} (a : (⟨2, ![M, C]⟩ : Shape).Idx → EReal) (b : (⟨1, ![C]⟩ : Shape).Idx → EReal) :
    (⟨2, ![M, C]⟩ : Shape).Idx → EReal :=
  fun i => max (a i + b (ix1 (i 1))) (Ideal.ofBits .f32 0x00000000#32)

theorem hidden_apply {M C : Nat} (a : (⟨2, ![M, C]⟩ : Shape).Idx → EReal) (b : (⟨1, ![C]⟩ : Shape).Idx → EReal)
    (p : Fin M) (c : Fin C) :
    hidden a b (ix2 p c) = max (a (ix2 p c) + b (ix1 c)) (Ideal.ofBits .f32 0x00000000#32) := rfl

/-- Two matrices of any heights whose entries agree at a pair of positions in the same column, under biases that
    agree at that column, give the same activation there. -/
theorem hidden_congr {M M' C : Nat} (a : (⟨2, ![M, C]⟩ : Shape).Idx → EReal) (a' : (⟨2, ![M', C]⟩ : Shape).Idx → EReal)
    (b b' : (⟨1, ![C]⟩ : Shape).Idx → EReal) (p : Fin M) (p' : Fin M') (c : Fin C)
    (h : a (ix2 p c) = a' (ix2 p' c)) (hb : b (ix1 c) = b' (ix1 c)) :
    hidden a b (ix2 p c) = hidden a' b' (ix2 p' c) := by
  rw [hidden_apply, hidden_apply, h, hb]

/-- The vector unit's spelling: a 1×C row holding the bias, repeated down the rows; a splat zero. -/
theorem hidden_unit {M C : Nat} (a : FVec Ideal ⟨2, ![M, C]⟩ .f32) (row : FVec Ideal ⟨2, ![1, C]⟩ .f32)
    (b : (⟨1, ![C]⟩ : Shape).Idx → EReal) (hrow : ∀ c : Fin C, row (ix2 (0 : Fin 1) c) = b (ix1 c))
    (hb : (⟨2, ![1, C]⟩ : Shape).Broadcasts ⟨2, ![M, C]⟩) :
    maximumf (addf a (broadcastTo ⟨2, ![M, C]⟩ row hb))
        (broadcast ⟨2, ![M, C]⟩ (Scalar.ofBits (F := Ideal) .f32 0x00000000#32)) = hidden a b := by
  funext i
  rw [eq_ix2 i]
  show max (a (ix2 (i 0) (i 1)) + broadcastTo ⟨2, ![M, C]⟩ row hb (ix2 (i 0) (i 1))) _ = _
  rw [broadcastTo_1b_ab_apply row hb (i 0) (i 1), hrow (i 1)]
  rfl

/-- A rank-0 value broadcast over a matrix reads that value everywhere. -/
theorem splat_apply {α : Type} {M C : Nat} (dims : Fin 0 → Fin 2)
    (h0 : (⟨0, ![]⟩ : Shape).BroadcastsInDim ⟨2, ![M, C]⟩ dims) (x : (⟨0, ![]⟩ : Shape).Idx → α)
    (i : (⟨2, ![M, C]⟩ : Shape).Idx) : broadcastInDim ⟨2, ![M, C]⟩ dims h0 x i = x ix0 :=
  broadcastInDim_apply dims h0 x i ix0 (fun a => a.elim0)

/-- The host's spelling: the bias broadcast to a row and down the rows by dimension maps; a rank-0 zero
    broadcast over the array. -/
theorem hidden_host {M C : Nat} (a : FVec Ideal ⟨2, ![M, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (dims : Fin 0 → Fin 2) (h0 : (⟨0, ![]⟩ : Shape).BroadcastsInDim ⟨2, ![M, C]⟩ dims) :
    maximumf (addf a (broadcastInDim ⟨2, ![M, C]⟩ ![0, 1] h2 (broadcastInDim ⟨2, ![1, C]⟩ ![1] h1 b)))
        (broadcastInDim ⟨2, ![M, C]⟩ dims h0 (constant (F := Ideal) ⟨0, ![]⟩ .f32 0x00000000#32)) = hidden a b := by
  funext i
  rw [eq_ix2 i]
  show max (a (ix2 (i 0) (i 1))
      + broadcastInDim ⟨2, ![M, C]⟩ ![0, 1] h2 (broadcastInDim ⟨2, ![1, C]⟩ ![1] h1 b) (ix2 (i 0) (i 1)))
    (broadcastInDim ⟨2, ![M, C]⟩ dims h0 (constant (F := Ideal) ⟨0, ![]⟩ .f32 0x00000000#32) (ix2 (i 0) (i 1))) = _
  rw [LayerOps.bias_bcast_rows b h1 h2 (i 0) (i 1), splat_apply]
  rfl

/-- A length-C vector reshaped to a 1×C row holds the vector's entry c at (0, c). -/
theorem row_of_cast {C : Nat} (b : (⟨1, ![C]⟩ : Shape).Idx → EReal)
    (hs : (⟨1, ![C]⟩ : Shape).ShapeCasts ⟨2, ![1, C]⟩) (c : Fin C) :
    shapeCast ⟨2, ![1, C]⟩ b hs (ix2 (0 : Fin 1) c) = b (ix1 c) :=
  shapeCast_a_1a_apply b hs 0 c

end Cert.Layer

end
-- ==== Proof.LibBiasedLayer.lean ====
/-
  The last layer's epilogue on the extended reals: a length-C bias added to every row of an M×C matrix, with no
  activation, as one whole-array function; entry (p, c) is a[p, c] + b[c]. The vector unit's spelling (the bias as a
  1×C row repeated down the rows) and the host's (two broadcasts by dimension map) are both this function, and an
  entry reads one entry of the matrix and one of the bias. Also: the zero offset vector of a whole-block access.
-/
import proofs.«138695_j5523327943291_1_alg».proof.Proof.LibHiddenLayer

noncomputable section

namespace Cert.Layer

open Idealize.ShloMosaic Idealize.ShloMosaic.ValueIdx

/-- a + b: the bias `b` added to every row. -/
def biased {M C : Nat} (a : (⟨2, ![M, C]⟩ : Shape).Idx → EReal) (b : (⟨1, ![C]⟩ : Shape).Idx → EReal) :
    (⟨2, ![M, C]⟩ : Shape).Idx → EReal :=
  fun i => a i + b (ix1 (i 1))

theorem biased_apply {M C : Nat} (a : (⟨2, ![M, C]⟩ : Shape).Idx → EReal) (b : (⟨1, ![C]⟩ : Shape).Idx → EReal)
    (p : Fin M) (c : Fin C) : biased a b (ix2 p c) = a (ix2 p c) + b (ix1 c) := rfl

/-- Matrices of any heights that agree at a pair of positions in one column give the same biased entry there. -/
theorem biased_congr {M M' C : Nat} (a : (⟨2, ![M, C]⟩ : Shape).Idx → EReal) (a' : (⟨2, ![M', C]⟩ : Shape).Idx → EReal)
    (b b' : (⟨1, ![C]⟩ : Shape).Idx → EReal) (p : Fin M) (p' : Fin M') (c : Fin C)
    (h : a (ix2 p c) = a' (ix2 p' c)) (hb : b (ix1 c) = b' (ix1 c)) :
    biased a b (ix2 p c) = biased a' b' (ix2 p' c) := by
  rw [biased_apply, biased_apply, h, hb]

/-- The vector unit's spelling: a 1×C row holding the bias, repeated down the rows. -/
theorem biased_unit {M C : Nat} (a : FVec Ideal ⟨2, ![M, C]⟩ .f32) (row : FVec Ideal ⟨2, ![1, C]⟩ .f32)
    (b : (⟨1, ![C]⟩ : Shape).Idx → EReal) (hrow : ∀ c : Fin C, row (ix2 (0 : Fin 1) c) = b (ix1 c))
    (hb : (⟨2, ![1, C]⟩ : Shape).Broadcasts ⟨2, ![M, C]⟩) :
    addf a (broadcastTo ⟨2, ![M, C]⟩ row hb) = biased a b := by
  funext i
  rw [eq_ix2 i]
  show a (ix2 (i 0) (i 1)) + broadcastTo ⟨2, ![M, C]⟩ row hb (ix2 (i 0) (i 1)) = _
  rw [broadcastTo_1b_ab_apply row hb (i 0) (i 1), hrow (i 1)]
  rfl

/-- The host's spelling: the bias broadcast to a row and down the rows by dimension maps. -/
theorem biased_host {M C : Nat} (a : FVec Ideal ⟨2, ![M, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1]) :
    addf a (broadcastInDim ⟨2, ![M, C]⟩ ![0, 1] h2 (broadcastInDim ⟨2, ![1, C]⟩ ![1] h1 b)) = biased a b := by
  funext i
  rw [eq_ix2 i]
  show a (ix2 (i 0) (i 1))
      + broadcastInDim ⟨2, ![M, C]⟩ ![0, 1] h2 (broadcastInDim ⟨2, ![1, C]⟩ ![1] h1 b) (ix2 (i 0) (i 1)) = _
  rw [LayerOps.bias_bcast_rows b h1 h2 (i 0) (i 1)]
  rfl

/-- The offset of an access that starts at the origin of a rank-2 buffer. -/
theorem origin2 : (![0, 0] : Fin 2 → Nat) = fun _ => 0 := funext fun a => by fin_cases a <;> rfl

end Cert.Layer

end
-- ==== Proof.Spec.lean ====
/-
  The three-layer graph convolution both programs compute, on the extended reals, as whole-array functions.

  From the 2×E edge list: the source and target lists with one self loop per node appended (`srcOf`, `dstOf`); the
  degree of every node as a scatter-add of ones at the targets (`degOf`); its normaliser, rsqrt of the degree where
  the degree is positive and zero elsewhere (`dinvOf`); an index list as a column of row numbers with negative numbers
  wrapped by the node count (`wrapCol`); the edge weight, the product of the normaliser gathered at the two ends
  (`normOf`). One aggregation step gathers the rows of a node matrix at the sources, scales row e by the edge weight
  of e and scatter-adds the rows at the targets into a zero matrix (`aggregate128`, `aggregate5`: 128 or 5 columns).
  All of these are kept as the host's operations and are never opened: both programs apply them to equal arguments.

  The network: a layer is aggregate(x · W) + b, the first two followed by a maximum with zero. `hostForm` spells it
  with the host's dot_general, broadcasts and maximum; `forward` with the matrix product `Cert.Product.mm` and the
  whole-array layers `Cert.Layer.hidden` and `Cert.Layer.biased`; `hostForm_eq`: they are equal.
-/
import proofs.«138695_j5523327943291_1_alg».proof.Proof.Gen.ReferenceIdeal
import proofs.«138695_j5523327943291_1_alg».proof.Proof.LibWholeProduct
import proofs.«138695_j5523327943291_1_alg».proof.Proof.LibBiasedLayer

noncomputable section

namespace Cert.Gcn

open Cert.ReferenceIdeal Cert.ReferenceIdeal.Gen Idealize.ShloMosaic

/-- Integer and float arrays of a shape, on the extended reals. -/
abbrev IV (s : Shape) : Type := IVec s 32
abbrev FV (s : Shape) : Type := FVec Ideal s .f32

/-- The sources of the edges, then one self loop per node. -/
def srcOf (e : IV S2x1600000) : IV S1700000 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The targets of the edges, then one self loop per node. -/
def dstOf (e : IV S2x1600000) : IV S1700000 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- The degree of every node: ones scatter-added at the targets. -/
def degOf (d : IV S1700000) : FV S100000 :=
  (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))

/-- rsqrt of the degree where it is positive, zero elsewhere. -/
def dinvOf (g : FV S100000) : FV S100000 :=
  (select (cmpf (F := Ideal) .ogt g (broadcastInDim S100000 ![] bcast_S_S100000 (constant S_ .f32 0x00000000#32))) (Host.rsqrt g) (broadcastInDim S100000 ![] bcast_S_S100000 (id (constant S_ .f32 0x00000000#32))))

/-- An index list as a column of row numbers, a negative number wrapped by the node count. -/
def wrapCol (v : IV S1700000) : IV S1700000x1 :=
  (broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v))

/-- The weight of every edge: the normaliser at its source times the normaliser at its target. -/
def normOf (v : FV S100000) (s d : IV S1700000) : FV S1700000 :=
  mulf (Host.gather gather_S100000_S1700000x1_S1700000_n_0_n_n_0_1_1 v (wrapCol s)) (Host.gather gather_S100000_S1700000x1_S1700000_n_0_n_n_0_1_1 v (wrapCol d))

/-- The edge weights from the edge list. -/
def edgeNorm (e : IV S2x1600000) : FV S1700000 := normOf (dinvOf (degOf (dstOf e))) (srcOf e) (dstOf e)

/-- One aggregation step on a 128-column node matrix. -/
def aggregate128 (s d : IV S1700000) (n : FV S1700000) (h : FV S100000x128) : FV S100000x128 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrapCol s)) (broadcastInDim S1700000x128 ![0, 1] bcast_S1700000x1_S1700000x128_0_1 (broadcastInDim S1700000x1 ![0] bcast_S1700000_S1700000x1_0 n)))

/-- One aggregation step on a 5-column node matrix. -/
def aggregate5 (s d : IV S1700000) (n : FV S1700000) (h : FV S100000x5) : FV S100000x5 :=
  Host.scatterAdd scatter_S100000x5_S1700000x1_S1700000x5_1_0_0_1 (broadcastInDim S100000x5 ![] bcast_S_S100000x5 (constant S_ .f32 0x00000000#32)) (broadcastInDim S1700000x1 ![0] bcast_S1700000_S1700000x1_0 d) (mulf (Host.gather gather_S100000x5_S1700000x1_S1700000x5_1_0_n_n_0_1_15 h (wrapCol s)) (broadcastInDim S1700000x5 ![0, 1] bcast_S1700000x1_S1700000x5_0_1 (broadcastInDim S1700000x1 ![0] bcast_S1700000_S1700000x1_0 n)))

/-- The network in the host's spelling, over given source and target lists and edge weights. -/
def hostForm (s d : IV S1700000) (n : FV S1700000) (x : FV S100000x128) (w0 : FV S128x128) (b0 : FV S128)
    (w1 : FV S128x128) (b1 : FV S128) (w2 : FV S128x5) (b2 : FV S5) : FV S100000x5 :=
  addf (aggregate5 s d n (Host.dotGeneral dot_S100000x128_S128x5_S100000x5_1_0_0_1_n_n none (maximumf (addf (aggregate128 s d n (Host.dotGeneral dot_S100000x128_S128x128_S100000x128_1_0_0_1_n_n none (maximumf (addf (aggregate128 s d n (Host.dotGeneral dot_S100000x128_S128x128_S100000x128_1_0_0_1_n_n none x w0)) (broadcastInDim S100000x128 ![0, 1] bcast_S1x128_S100000x128_0_1 (broadcastInDim S1x128 ![1] bcast_S128_S1x128_1 b0))) (broadcastInDim S100000x128 ![] bcast_S_S100000x128 (constant S_ .f32 0x00000000#32))) w1)) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2)) (broadcastInDim S100000x5 ![0, 1] bcast_S1x5_S100000x5_0_1 (broadcastInDim S1x5 ![1] bcast_S5_S1x5_1 b2))

/-- The network with the matrix product and the whole-array layers. -/
def forward (s d : IV S1700000) (n : FV S1700000) (x : FV S100000x128) (w0 : FV S128x128) (b0 : FV S128)
    (w1 : FV S128x128) (b1 : FV S128) (w2 : FV S128x5) (b2 : FV S5) : FV S100000x5 :=
  Cert.Layer.biased (M := 100000) (C := 5)
    (aggregate5 s d n (Cert.Product.mm (M := 100000) (K := 128) (N := 5)
      (Cert.Layer.hidden (M := 100000) (C := 128)
        (aggregate128 s d n (Cert.Product.mm (M := 100000) (K := 128) (N := 128)
          (Cert.Layer.hidden (M := 100000) (C := 128)
            (aggregate128 s d n (Cert.Product.mm (M := 100000) (K := 128) (N := 128) x w0)) b0) w1)) b1) w2)) b2

/-- The two spellings are one function: a dot_general of a plain product is the matrix product, an add of a bias
    broadcast down the rows followed by a maximum with a zero splat is the hidden activation, and the last add is the
    biased matrix. -/
theorem hostForm_eq (s d : IV S1700000) (n : FV S1700000) (x : FV S100000x128) (w0 : FV S128x128) (b0 : FV S128)
    (w1 : FV S128x128) (b1 : FV S128) (w2 : FV S128x5) (b2 : FV S5) :
    hostForm s d n x w0 b0 w1 b1 w2 b2 = forward s d n x w0 b0 w1 b1 w2 b2 := by
  unfold hostForm forward
  rw [Cert.Product.dotGeneral_eq (M := 100000) (K := 128) (N := 128) ⟨rfl, rfl, rfl, rfl, rfl, rfl⟩ none x w0,
    Cert.Layer.hidden_host (M := 100000) (C := 128) _ b0 bcast_S128_S1x128_1 bcast_S1x128_S100000x128_0_1 ![] bcast_S_S100000x128,
    Cert.Product.dotGeneral_eq (M := 100000) (K := 128) (N := 128) ⟨rfl, rfl, rfl, rfl, rfl, rfl⟩ none _ w1,
    Cert.Layer.hidden_host (M := 100000) (C := 128) _ b1 bcast_S128_S1x128_1 bcast_S1x128_S100000x128_0_1 ![] bcast_S_S100000x128,
    Cert.Product.dotGeneral_eq (M := 100000) (K := 128) (N := 5) ⟨rfl, rfl, rfl, rfl, rfl, rfl⟩ none _ w2,
    Cert.Layer.biased_host (M := 100000) (C := 5) _ b2 bcast_S5_S1x5_1 bcast_S1x5_S100000x5_0_1]

end Cert.Gcn

end
-- ==== Proof.RefValue.lean ====
/-
  What the reference computes: its result, the composed term of its host operations over the argument arrays, is
  the network `Cert.Gcn.forward` over the source list, target list and edge weights of the edge-list argument. The
  reference recomputes those three for every layer; each recomputation is the same operations of the same argument,
  so the composed term is literally the host spelling `Cert.Gcn.hostForm` with the shared pieces folded.
-/
import proofs.«138695_j5523327943291_1_alg».proof.Proof.RefRunPatched
import proofs.«138695_j5523327943291_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

/-- The run's result term is the network of the arguments. -/
theorem result_eq (m : (ℓ : Loc nD τ sig) → Buf (Elt Ideal) ℓ) (c : Dev nD) :
    Cert.ReferenceIdeal.ValueP.res_main_v134 (F := Ideal) m c
      = Cert.Gcn.forward (Cert.Gcn.srcOf (m ((c.tc : Thread nD τ).loc main_arg1))) (Cert.Gcn.dstOf (m ((c.tc : Thread nD τ).loc main_arg1))) (Cert.Gcn.edgeNorm (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (Cert.Gcn.hostForm_eq _ _ _ _ _ _ _ _ _ _)
  unfold Cert.ReferenceIdeal.ValueP.res_main_v134 Cert.Gcn.hostForm Cert.Gcn.edgeNorm Cert.Gcn.normOf Cert.Gcn.aggregate5
    Cert.Gcn.aggregate128 Cert.Gcn.wrapCol Cert.Gcn.dinvOf Cert.Gcn.degOf Cert.Gcn.srcOf Cert.Gcn.dstOf
  rfl

end Cert.ReferenceIdeal.RefValue

end
-- ==== Proof.KernelRun.lean ====
/-
  The idealized kernel's run with its result kept. The program is six pipelined calls among stretches of host
  operations; the launch rule over those segments gives, at the end of every weakly fair execution, every unscoped
  buffer at the contents of the last segment boundary. The generated frame keeps of that only the argument arrays;
  here the result buffer is kept too: it ends at the last boundary's contents of the result buffer.
-/
import proofs.«138695_j5523327943291_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.Call0.lean ====
/-
  Pallas call 0 of the program: rows of a 100000×128 matrix times a 128×128 weight matrix, ten blocks of 10000 rows.

  At grid point t the body loads rows 10000·t … 10000·t + 9999 of the left operand and the whole weight matrix, and
  stores their product (the operands' cast to a narrower float format is the identity on the extended reals) as the
  same rows of the result. An entry of a product depends on one row of the left operand only, so what point t writes
  back is block t of the product of the WHOLE left operand with the weights; the ten blocks tile the result; hence
  after the call the result array is that product, whatever the arrays held when the call was entered.
-/
import proofs.«138695_j5523327943291_1_alg».proof.Proof.Gen.KernelIdeal.Frame
import proofs.«138695_j5523327943291_1_alg».proof.Proof.LibWholeProduct
import proofs.«138695_j5523327943291_1_alg».proof.Proof.LibBiasedLayer
import Idealize.ShloMosaic.Lib.Pipeline.Value

noncomputable section

namespace Cert.KernelIdeal.Call0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value is the product of its two loaded blocks. -/
theorem payload_eq (x0 : Vec Ideal S10000x128 .f32) (x1 : Vec Ideal S128x128 .f32) :
    k0_pay1 x0 x1 = Cert.Product.mm (K := 128) (fun i => x0 i) (fun i => x1 i) := by
  unfold k0_pay1
  exact Cert.Product.matmul_zero_eq ⟨rfl, rfl, rfl, rfl, rfl, rfl⟩ none _ _

/-- The printed index maps over the ten grid points: the left operand's and the result's blocks move together down
    the rows, the weight matrix stays whole, and the result's row block is the point's number. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the whole arrays found at entry. -/
theorem flushed_eq (c : Dev nD) (t : Fin cfg0.N) :
    (dat0 V c).flushed 2 t
      = ((cfg0.win 2).blk t).view.read (Elt Ideal) (Cert.Product.mm (K := 128) (V c main_arg0) (V c main_arg2)) := by
  show (cfg0.win 2).cut (grid0.coords t) ((dat0 V c).after 2 t) = _
  rw [after0_2]
  unfold out0_2
  rw [View.canon_unit_zero Cert.Layer.origin2]
  simp only [View.ld_unit_zero (S := S10000x128) Cert.Layer.origin2, View.ld_unit_zero (S := S128x128) Cert.Layer.origin2]
  rw [payload_eq]
  obtain ⟨e0, e1, e2, e3, e4, e5⟩ := index_facts t
  funext j
  show Cert.Product.mm (K := 128) (fun i => iblk0 V c 0 t i) (fun i => iblk0 V c 1 t i) j
    = Cert.Product.mm (K := 128) (V c main_arg0) (V c main_arg2) (((cfg0.win 2).blk t).view.emb j)
  refine Cert.Product.mm_eq_of_row_col _ _ _ _ j _ (fun q => ?_) (fun q => ?_)
  · show V c main_arg0 (((cfg0.win 0).blk t).view.emb (ix2 (j 0) q)) = V c main_arg0 (ix2 ((((cfg0.win 2).blk t).view.emb j) 0) q)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb (ix2 q (j 1))) = V c main_arg2 (ix2 q ((((cfg0.win 2).blk t).view.emb j) 1))
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

/-- An index of the result is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten blocks tile the result: row r is in block r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the call the result array is the product of the arrays found at entry. -/
theorem result (c : Dev nD) :
    (dat0 V c).arrAt 2 cfg0.N = Cert.Product.mm (K := 128) (V c main_arg0) (V c main_arg2) :=
  (dat0 V c).arrAt_eq_of_cover 2 _ (fun t _ => flushed_eq V c t) covered

end Cert.KernelIdeal.Call0

end
-- ==== Proof.Call1.lean ====
/-
  Pallas call 1 of the program: the epilogue that adds a bias row to every row and takes the maximum with zero, over a 100000×128 matrix
  in ten blocks of 10000 rows.

  At grid point t the body loads rows 10000·t … 10000·t + 9999 of the matrix and the whole 1×128 bias row, and stores
  the result as the same rows of the output. An entry of the result reads the same entry of the matrix and one entry of
  the bias, so what point t writes back is block t of the function of the WHOLE matrix; the ten blocks tile the output;
  hence after the call the output array is that function of the matrix and of the vector `b` the bias row holds,
  whatever the arrays held when the call was entered.
-/
import proofs.«138695_j5523327943291_1_alg».proof.Proof.Gen.KernelIdeal.Frame
import proofs.«138695_j5523327943291_1_alg».proof.Proof.LibBiasedLayer
import Idealize.ShloMosaic.Lib.Pipeline.Value

noncomputable section

namespace Cert.KernelIdeal.Call1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value, for a bias row that holds the vector `b`. -/
theorem payload_eq (x0 : Vec Ideal S10000x128 .f32) (x1 : Vec Ideal S1x128 .f32) (b : S128.Idx → EReal)
    (hrow : ∀ c : Fin 128, x1 (ix2 (0 : Fin 1) c) = b (ix1 c)) :
    k1_pay1 x0 x1 = Cert.Layer.hidden (fun i => x0 i) b := by
  unfold k1_pay1
  rw [shapeCast_self, shapeCast_self]
  exact Cert.Layer.hidden_unit _ _ b hrow _

/-- The printed index maps over the ten grid points: the matrix's and the output's blocks move together down the
    rows, the bias row stays whole, and the output's row block is the point's number. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the output is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the function of the whole matrix found at entry. -/
theorem flushed_eq (c : Dev nD) (b : S128.Idx → EReal)
    (hrow : ∀ q : Fin 128, V c main_v44 (ix2 (0 : Fin 1) q) = b (ix1 q)) (t : Fin cfg1.N) :
    (dat1 V c).flushed 2 t
      = ((cfg1.win 2).blk t).view.read (Elt Ideal) (Cert.Layer.hidden (V c main_v43) b) := by
  show (cfg1.win 2).cut (grid1.coords t) ((dat1 V c).after 2 t) = _
  rw [after1_2]
  unfold out1_2
  rw [View.canon_unit_zero Cert.Layer.origin2]
  simp only [View.ld_unit_zero (S := S10000x128) Cert.Layer.origin2, View.ld_unit_zero (S := S1x128) Cert.Layer.origin2]
  obtain ⟨e0, e1, e2, e3, e4, e5⟩ := index_facts t
  rw [payload_eq (iblk1 V c 0 t) (iblk1 V c 1 t) b (fun q => by
    show V c main_v44 (((cfg1.win 1).blk t).view.emb (ix2 (0 : Fin 1) q)) = b (ix1 q)
    refine Eq.trans (congrArg (V c main_v44) (funext fun a => Fin.ext ?_)) (hrow q)
    match a with
    | ⟨0, _⟩ => show win1_1.index t (0 : Fin 2) * 1 + 1 * 0 = 0; omega
    | ⟨1, _⟩ => show win1_1.index t (1 : Fin 2) * 128 + 1 * q.val = q.val; omega)]
  funext j
  have ej : ((cfg1.win 2).blk t).view.emb j = ix2 ((((cfg1.win 2).blk t).view.emb j) 0) (j 1) := by
    refine funext fun a => Fin.ext ?_
    match a with
    | ⟨0, _⟩ => rfl
    | ⟨1, _⟩ => show win1_2.index t (1 : Fin 2) * 128 + 1 * (j 1).val = (j 1).val; omega
  show Cert.Layer.hidden (fun i => iblk1 V c 0 t i) b j = Cert.Layer.hidden (V c main_v43) b (((cfg1.win 2).blk t).view.emb j)
  rw [ej, eq_ix2 j]
  refine Cert.Layer.hidden_congr _ _ b b (j 0) _ (j 1) ?_ rfl
  show V c main_v43 (((cfg1.win 0).blk t).view.emb (ix2 (j 0) (j 1))) = V c main_v43 (ix2 ((((cfg1.win 2).blk t).view.emb j) 0) (j 1))
  refine congrArg (V c main_v43) (funext fun a => Fin.ext ?_)
  match a with
  | ⟨0, _⟩ => show win1_0.index t (0 : Fin 2) * 10000 + 1 * (j 0).val = win1_2.index t (0 : Fin 2) * 10000 + 1 * (j 0).val; omega
  | ⟨1, _⟩ => show win1_0.index t (1 : Fin 2) * 128 + 1 * (j 1).val = (j 1).val; omega

/-- An index of the output is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten blocks tile the output: row r is in block r / 10000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the call the output array is the function of the matrix found at entry and of the vector the bias row holds. -/
theorem result (c : Dev nD) (b : S128.Idx → EReal)
    (hrow : ∀ q : Fin 128, V c main_v44 (ix2 (0 : Fin 1) q) = b (ix1 q)) :
    (dat1 V c).arrAt 2 cfg1.N = Cert.Layer.hidden (V c main_v43) b :=
  (dat1 V c).arrAt_eq_of_cover 2 _ (fun t _ => flushed_eq V c b hrow t) covered

end Cert.KernelIdeal.Call1

end
-- ==== Proof.Call2.lean ====
/-
  Pallas call 2 of the program: rows of a 100000×128 matrix times a 128×128 weight matrix, ten blocks of 10000 rows.

  At grid point t the body loads rows 10000·t … 10000·t + 9999 of the left operand and the whole weight matrix, and
  stores their product (the operands' cast to a narrower float format is the identity on the extended reals) as the
  same rows of the result. An entry of a product depends on one row of the left operand only, so what point t writes
  back is block t of the product of the WHOLE left operand with the weights; the ten blocks tile the result; hence
  after the call the result array is that product, whatever the arrays held when the call was entered.
-/
import proofs.«138695_j5523327943291_1_alg».proof.Proof.Gen.KernelIdeal.Frame
import proofs.«138695_j5523327943291_1_alg».proof.Proof.LibWholeProduct
import proofs.«138695_j5523327943291_1_alg».proof.Proof.LibBiasedLayer
import Idealize.ShloMosaic.Lib.Pipeline.Value

noncomputable section

namespace Cert.KernelIdeal.Call2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value is the product of its two loaded blocks. -/
theorem payload_eq (x0 : Vec Ideal S10000x128 .f32) (x1 : Vec Ideal S128x128 .f32) :
    k2_pay1 x0 x1 = Cert.Product.mm (K := 128) (fun i => x0 i) (fun i => x1 i) := by
  unfold k2_pay1
  rw [shapeCast_self]
  exact Cert.Product.matmul_zero_eq ⟨rfl, rfl, rfl, rfl, rfl, rfl⟩ none _ _

/-- The printed index maps over the ten grid points: the left operand's and the result's blocks move together down
    the rows, the weight matrix stays whole, and the result's row block is the point's number. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the result is some point's. -/
theorem index_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the product of the whole arrays found at entry. -/
theorem flushed_eq (c : Dev nD) (t : Fin cfg2.N) :
    (dat2 V c).flushed 2 t
      = ((cfg2.win 2).blk t).view.read (Elt Ideal) (Cert.Product.mm (K := 128) (V c main_v45) (V c main_arg4)) := by
  show (cfg2.win 2).cut (grid2.coords t) ((dat2 V c).after 2 t) = _
  rw [after2_2]
  unfold out2_2
  rw [View.canon_unit_zero Cert.Layer.origin2]
  simp only [View.ld_unit_zero (S := S10000x128) Cert.Layer.origin2, View.ld_unit_zero (S := S128x128) Cert.Layer.origin2]
  rw [payload_eq]
  obtain ⟨e0, e1, e2, e3, e4, e5⟩ := index_facts t
  funext j
  show Cert.Product.mm (K := 128) (fun i => iblk2 V c 0 t i) (fun i => iblk2 V c 1 t i) j
    = Cert.Product.mm (K := 128) (V c main_v45) (V c main_arg4) (((cfg2.win 2).blk t).view.emb j)
  refine Cert.Product.mm_eq_of_row_col _ _ _ _ j _ (fun q => ?_) (fun q => ?_)
  · show V c main_v45 (((cfg2.win 0).blk t).view.emb (ix2 (j 0) q)) = V c main_v45 (ix2 ((((cfg2.win 2).blk t).view.emb j) 0) q)
    refine congrArg (V c main_v45) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * q.val = q.val; omega
  · show V c main_arg4 (((cfg2.win 1).blk t).view.emb (ix2 q (j 1))) = V c main_arg4 (ix2 q ((((cfg2.win 2).blk t).view.emb j) 1))
    refine congrArg (V c main_arg4) (funext fun a => Fin.ext ?_)
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega

/-- An index of the result is in point `t`'s block iff each coordinate is in the block's range on its axis. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- The ten blocks tile the result: row r is in block r / 10000. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the call the result array is the product of the arrays found at entry. -/
theorem result (c : Dev nD) :
    (dat2 V c).arrAt 2 cfg2.N = Cert.Product.mm (K := 128) (V c main_v45) (V c main_arg4) :=
  (dat2 V c).arrAt_eq_of_cover 2 _ (fun t _ => flushed_eq V c t) covered

end Cert.KernelIdeal.Call2

end
-- ==== Proof.Call3.lean ====
/-
  Pallas call 3 of the program: the epilogue that adds a bias row to every row and takes the maximum with zero, over a 100000×128 matrix
  in ten blocks of 10000 rows.

  At grid point t the body loads rows 10000·t … 10000·t + 9999 of the matrix and the whole 1×128 bias row, and stores
  the result as the same rows of the output. An entry of the result reads the same entry of the matrix and one entry of
  the bias, so what point t writes back is block t of the function of the WHOLE matrix; the ten blocks tile the output;
  hence after the call the output array is that function of the matrix and of the vector `b` the bias row holds,
  whatever the arrays held when the call was entered.
-/
import proofs.«138695_j5523327943291_1_alg».proof.Proof.Gen.KernelIdeal.Frame
import proofs.«138695_j5523327943291_1_alg».proof.Proof.LibBiasedLayer
import Idealize.ShloMosaic.Lib.Pipeline.Value

noncomputable section

namespace Cert.KernelIdeal.Call3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value, for a bias row that holds the vector `b`. -/
theorem payload_eq (x0 : Vec Ideal S10000x128 .f32) (x1 : Vec Ideal S1x128 .f32) (b : S128.Idx → EReal)
    (hrow : ∀ c : Fin 128, x1 (ix2 (0 : Fin 1) c) = b (ix1 c)) :
    k3_pay1 x0 x1 = Cert.Layer.hidden (fun i => x0 i) b := by
  unfold k3_pay1
  rw [shapeCast_self, shapeCast_self]
  exact Cert.Layer.hidden_unit _ _ b hrow _

/-- The printed index maps over the ten grid points: the matrix's and the output's blocks move together down the
    rows, the bias row stays whole, and the output's row block is the point's number. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block of the output is some point's. -/
theorem index_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the function of the whole matrix found at entry. -/
theorem flushed_eq (c : Dev nD) (b : S128.Idx → EReal)
    (hrow : ∀ q : Fin 128, V c main_v60 (ix2 (0 : Fin 1) q) = b (ix1 q)) (t : Fin cfg3.N) :
    (dat3 V c).flushed 2 t
      = ((cfg3.win 2).blk t).view.read (Elt Ideal) (Cert.Layer.hidden (V c main_v59) b) := by
  show (cfg3.win 2).cut (grid3.coords t) ((dat3 V c).after 2 t) = _
  rw [after3_2]
  unfold out3_2
  rw [View.canon_unit_zero Cert.Layer.origin2]
  simp only [View.ld_unit_zero (S := S10000x128) Cert.Layer.origin2, View.ld_unit_zero (S := S1x128) Cert.Layer.origin2]
  obtain ⟨e0, e1, e2, e3, e4, e5⟩ := index_facts t
  rw [payload_eq (iblk3 V c 0 t) (iblk3 V c 1 t) b (fun q => by
    show V c main_v60 (((cfg3.win 1).blk t).view.emb (ix2 (0 : Fin 1) q)) = b (ix1 q)
    refine Eq.trans (congrArg (V c main_v60) (funext fun a => Fin.ext ?_)) (hrow q)
    match a with
    | ⟨0, _⟩ => show win3_1.index t (0 : Fin 2) * 1 + 1 * 0 = 0; omega
    | ⟨1, _⟩ => show win3_1.index t (1 : Fin 2) * 128 + 1 * q.val = q.val; omega)]
  funext j
  have ej : ((cfg3.win 2).blk t).view.emb j = ix2 ((((cfg3.win 2).blk t).view.emb j) 0) (j 1) := by
    refine funext fun a => Fin.ext ?_
    match a with
    | ⟨0, _⟩ => rfl
    | ⟨1, _⟩ => show win3_2.index t (1 : Fin 2) * 128 + 1 * (j 1).val = (j 1).val; omega
  show Cert.Layer.hidden (fun i => iblk3 V c 0 t i) b j = Cert.Layer.hidden (V c main_v59) b (((cfg3.win 2).blk t).view.emb j)
  rw [ej, eq_ix2 j]
  refine Cert.Layer.hidden_congr _ _ b b (j 0) _ (j 1) ?_ rfl
  show V c main_v59 (((cfg3.win 0).blk t).view.emb (ix2 (j 0) (j 1))) = V c main_v59 (ix2 ((((cfg3.win 2).blk t).view.emb j) 0) (j 1))
  refine congrArg (V c main_v59) (funext fun a => Fin.ext ?_)
  match a with
  | ⟨0, _⟩ => show win3_0.index t (0 : Fin 2) * 10000 + 1 * (j 0).val = win3_2.index t (0 : Fin 2) * 10000 + 1 * (j 0).val; omega
  | ⟨1, _⟩ => show win3_0.index t (1 : Fin 2) * 128 + 1 * (j 1).val = (j 1).val; omega

/-- An index of the output is in point `t`'s block iff each coordinate is in the block's range on its axis. -/
theorem mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- The ten blocks tile the output: row r is in block r / 10000. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the call the output array is the function of the matrix found at entry and of the vector the bias row holds. -/
theorem result (c : Dev nD) (b : S128.Idx → EReal)
    (hrow : ∀ q : Fin 128, V c main_v60 (ix2 (0 : Fin 1) q) = b (ix1 q)) :
    (dat3 V c).arrAt 2 cfg3.N = Cert.Layer.hidden (V c main_v59) b :=
  (dat3 V c).arrAt_eq_of_cover 2 _ (fun t _ => flushed_eq V c b hrow t) covered

end Cert.KernelIdeal.Call3

end
-- ==== Proof.Call4.lean ====
/-
  Pallas call 4 of the program: rows of a 100000×128 matrix times a 128×5 weight matrix, ten blocks of 10000 rows.

  At grid point t the body loads rows 10000·t … 10000·t + 9999 of the left operand and the whole weight matrix, and
  stores their product (the operands' cast to a narrower float format is the identity on the extended reals) as the
  same rows of the result. An entry of a product depends on one row of the left operand only, so what point t writes
  back is block t of the product of the WHOLE left operand with the weights; the ten blocks tile the result; hence
  after the call the result array is that product, whatever the arrays held when the call was entered.
-/
import proofs.«138695_j5523327943291_1_alg».proof.Proof.Gen.KernelIdeal.Frame
import proofs.«138695_j5523327943291_1_alg».proof.Proof.LibWholeProduct
import proofs.«138695_j5523327943291_1_alg».proof.Proof.LibBiasedLayer
import Idealize.ShloMosaic.Lib.Pipeline.Value

noncomputable section

namespace Cert.KernelIdeal.Call4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value is the product of its two loaded blocks. -/
theorem payload_eq (x0 : Vec Ideal S10000x128 .f32) (x1 : Vec Ideal S128x5 .f32) :
    k4_pay1 x0 x1 = Cert.Product.mm (K := 128) (fun i => x0 i) (fun i => x1 i) := by
  unfold k4_pay1
  rw [shapeCast_self]
  exact Cert.Product.matmul_zero_eq ⟨rfl, rfl, rfl, rfl, rfl, rfl⟩ none _ _

/-- The printed index maps over the ten grid points: the left operand's and the result's blocks move together down
    the rows, the weight matrix stays whole, and the result's row block is the point's number. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block of the result is some point's. -/
theorem index_onto : ∀ q : Fin 10, ∃ t : Fin cfg4.N, win4_2.index t = ![q.val, 0] :=
  (by decide +kernel : ∀ q : Fin 10, ∃ t : Fin grid4.N, win4_2.index t = ![q.val, 0])

/-- What point `t` writes back is block `t` of the product of the whole arrays found at entry. -/
theorem flushed_eq (c : Dev nD) (t : Fin cfg4.N) :
    (dat4 V c).flushed 2 t
      = ((cfg4.win 2).blk t).view.read (Elt Ideal) (Cert.Product.mm (K := 128) (V c main_v61) (V c main_arg6)) := by
  show (cfg4.win 2).cut (grid4.coords t) ((dat4 V c).after 2 t) = _
  rw [after4_2]
  unfold out4_2
  rw [View.canon_unit_zero Cert.Layer.origin2]
  simp only [View.ld_unit_zero (S := S10000x128) Cert.Layer.origin2, View.ld_unit_zero (S := S128x5) Cert.Layer.origin2]
  rw [payload_eq]
  obtain ⟨e0, e1, e2, e3, e4, e5⟩ := index_facts t
  funext j
  show Cert.Product.mm (K := 128) (fun i => iblk4 V c 0 t i) (fun i => iblk4 V c 1 t i) j
    = Cert.Product.mm (K := 128) (V c main_v61) (V c main_arg6) (((cfg4.win 2).blk t).view.emb j)
  refine Cert.Product.mm_eq_of_row_col _ _ _ _ j _ (fun q => ?_) (fun q => ?_)
  · show V c main_v61 (((cfg4.win 0).blk t).view.emb (ix2 (j 0) q)) = V c main_v61 (ix2 ((((cfg4.win 2).blk t).view.emb j) 0) q)
    refine congrArg (V c main_v61) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * q.val = q.val; omega
  · show V c main_arg6 (((cfg4.win 1).blk t).view.emb (ix2 q (j 1))) = V c main_arg6 (ix2 q ((((cfg4.win 2).blk t).view.emb j) 1))
    refine congrArg (V c main_arg6) (funext fun a => Fin.ext ?_)
    match a with
    | ⟨0, _⟩ => show win4_1.index t (0 : Fin 2) * 128 + 1 * q.val = q.val; omega
    | ⟨1, _⟩ => show win4_1.index t (1 : Fin 2) * 5 + 1 * (j 1).val = win4_2.index t (1 : Fin 2) * 5 + 1 * (j 1).val; omega

/-- An index of the result is in point `t`'s block iff each coordinate is in the block's range on its axis. -/
theorem mem_block (t : Fin cfg4.N) (i : S100000x5.Idx) :
    i ∈ ((cfg4.win 2).blk t).view.set ↔ ∀ a : Fin 2, win4_2.index t a * S10000x5.size a ≤ (i a).val ∧ (i a).val < win4_2.index t a * S10000x5.size a + S10000x5.size a := by
  show i ∈ ((View.whole main_v62).slice (win4_2.rect t)).set ↔ _
  rw [View.set_slice_whole, Rect.mem_set_unit]
  exact Iff.rfl

/-- The ten blocks tile the result: row r is in block r / 10000. -/
theorem covered (i : S100000x5.Idx) :
    ∃ t : Fin cfg4.N, (cfg4.win 2).flush t = true ∧ i ∈ ((cfg4.win 2).blk t).view.set := by
  have hi0 : (i 0).val < 100000 := (i 0).isLt
  have hi1 : (i 1).val < 5 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 5 ≤ (i 1).val ∧ (i 1).val < win4_2.index t (1 : Fin 2) * 5 + 5; omega

/-- After the call the result array is the product of the arrays found at entry. -/
theorem result (c : Dev nD) :
    (dat4 V c).arrAt 2 cfg4.N = Cert.Product.mm (K := 128) (V c main_v61) (V c main_arg6) :=
  (dat4 V c).arrAt_eq_of_cover 2 _ (fun t _ => flushed_eq V c t) covered

end Cert.KernelIdeal.Call4

end
-- ==== Proof.Call5.lean ====
/-
  Pallas call 5 of the program: the epilogue that adds a bias row to every row, over a 100000×5 matrix
  in ten blocks of 10000 rows.

  At grid point t the body loads rows 10000·t … 10000·t + 9999 of the matrix and the whole 1×5 bias row, and stores
  the result as the same rows of the output. An entry of the result reads the same entry of the matrix and one entry of
  the bias, so what point t writes back is block t of the function of the WHOLE matrix; the ten blocks tile the output;
  hence after the call the output array is that function of the matrix and of the vector `b` the bias row holds,
  whatever the arrays held when the call was entered.
-/
import proofs.«138695_j5523327943291_1_alg».proof.Proof.Gen.KernelIdeal.Frame
import proofs.«138695_j5523327943291_1_alg».proof.Proof.LibBiasedLayer
import Idealize.ShloMosaic.Lib.Pipeline.Value

noncomputable section

namespace Cert.KernelIdeal.Call5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's stored value, for a bias row that holds the vector `b`. -/
theorem payload_eq (x0 : Vec Ideal S10000x5 .f32) (x1 : Vec Ideal S1x5 .f32) (b : S5.Idx → EReal)
    (hrow : ∀ c : Fin 5, x1 (ix2 (0 : Fin 1) c) = b (ix1 c)) :
    k5_pay1 x0 x1 = Cert.Layer.biased (fun i => x0 i) b := by
  unfold k5_pay1
  rw [shapeCast_self, shapeCast_self]
  exact Cert.Layer.biased_unit _ _ b hrow _

/-- The printed index maps over the ten grid points: the matrix's and the output's blocks move together down the
    rows, the bias row stays whole, and the output's row block is the point's number. -/
theorem index_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every row block of the output is some point's. -/
theorem index_onto : ∀ q : Fin 10, ∃ t : Fin cfg5.N, win5_2.index t = ![q.val, 0] :=
  (by decide +kernel : ∀ q : Fin 10, ∃ t : Fin grid5.N, win5_2.index t = ![q.val, 0])

/-- What point `t` writes back is block `t` of the function of the whole matrix found at entry. -/
theorem flushed_eq (c : Dev nD) (b : S5.Idx → EReal)
    (hrow : ∀ q : Fin 5, V c main_v76 (ix2 (0 : Fin 1) q) = b (ix1 q)) (t : Fin cfg5.N) :
    (dat5 V c).flushed 2 t
      = ((cfg5.win 2).blk t).view.read (Elt Ideal) (Cert.Layer.biased (V c main_v75) b) := by
  show (cfg5.win 2).cut (grid5.coords t) ((dat5 V c).after 2 t) = _
  rw [after5_2]
  unfold out5_2
  rw [View.canon_unit_zero Cert.Layer.origin2]
  simp only [View.ld_unit_zero (S := S10000x5) Cert.Layer.origin2, View.ld_unit_zero (S := S1x5) Cert.Layer.origin2]
  obtain ⟨e0, e1, e2, e3, e4, e5⟩ := index_facts t
  rw [payload_eq (iblk5 V c 0 t) (iblk5 V c 1 t) b (fun q => by
    show V c main_v76 (((cfg5.win 1).blk t).view.emb (ix2 (0 : Fin 1) q)) = b (ix1 q)
    refine Eq.trans (congrArg (V c main_v76) (funext fun a => Fin.ext ?_)) (hrow q)
    match a with
    | ⟨0, _⟩ => show win5_1.index t (0 : Fin 2) * 1 + 1 * 0 = 0; omega
    | ⟨1, _⟩ => show win5_1.index t (1 : Fin 2) * 5 + 1 * q.val = q.val; omega)]
  funext j
  have ej : ((cfg5.win 2).blk t).view.emb j = ix2 ((((cfg5.win 2).blk t).view.emb j) 0) (j 1) := by
    refine funext fun a => Fin.ext ?_
    match a with
    | ⟨0, _⟩ => rfl
    | ⟨1, _⟩ => show win5_2.index t (1 : Fin 2) * 5 + 1 * (j 1).val = (j 1).val; omega
  show Cert.Layer.biased (fun i => iblk5 V c 0 t i) b j = Cert.Layer.biased (V c main_v75) b (((cfg5.win 2).blk t).view.emb j)
  rw [ej, eq_ix2 j]
  refine Cert.Layer.biased_congr _ _ b b (j 0) _ (j 1) ?_ rfl
  show V c main_v75 (((cfg5.win 0).blk t).view.emb (ix2 (j 0) (j 1))) = V c main_v75 (ix2 ((((cfg5.win 2).blk t).view.emb j) 0) (j 1))
  refine congrArg (V c main_v75) (funext fun a => Fin.ext ?_)
  match a with
  | ⟨0, _⟩ => show win5_0.index t (0 : Fin 2) * 10000 + 1 * (j 0).val = win5_2.index t (0 : Fin 2) * 10000 + 1 * (j 0).val; omega
  | ⟨1, _⟩ => show win5_0.index t (1 : Fin 2) * 5 + 1 * (j 1).val = (j 1).val; omega

/-- An index of the output is in point `t`'s block iff each coordinate is in the block's range on its axis. -/
theorem mem_block (t : Fin cfg5.N) (i : S100000x5.Idx) :
    i ∈ ((cfg5.win 2).blk t).view.set ↔ ∀ a : Fin 2, win5_2.index t a * S10000x5.size a ≤ (i a).val ∧ (i a).val < win5_2.index t a * S10000x5.size a + S10000x5.size a := by
  show i ∈ ((View.whole main_v77).slice (win5_2.rect t)).set ↔ _
  rw [View.set_slice_whole, Rect.mem_set_unit]
  exact Iff.rfl

/-- The ten blocks tile the output: row r is in block r / 10000. -/
theorem covered (i : S100000x5.Idx) :
    ∃ t : Fin cfg5.N, (cfg5.win 2).flush t = true ∧ i ∈ ((cfg5.win 2).blk t).view.set := by
  have hi0 : (i 0).val < 100000 := (i 0).isLt
  have hi1 : (i 1).val < 5 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 5 ≤ (i 1).val ∧ (i 1).val < win5_2.index t (1 : Fin 2) * 5 + 5; omega

/-- After the call the output array is the function of the matrix found at entry and of the vector the bias row holds. -/
theorem result (c : Dev nD) (b : S5.Idx → EReal)
    (hrow : ∀ q : Fin 5, V c main_v76 (ix2 (0 : Fin 1) q) = b (ix1 q)) :
    (dat5 V c).arrAt 2 cfg5.N = Cert.Layer.biased (V c main_v75) b :=
  (dat5 V c).arrAt_eq_of_cover 2 _ (fun t _ => flushed_eq V c b hrow t) covered

end Cert.KernelIdeal.Call5

end
-- ==== Proof.Boundaries.lean ====
/-
  What the buffers hold at each segment boundary of the idealized kernel's run, read back to the launch memory.

  The boundaries are the generated frame's `W0` … `W12`: a stretch of host operations takes a boundary to the next by
  the fold of its operations; a pipelined call leaves its three arrays at what the pipeline leaves and every other
  buffer as it was. Before the first call the host computes, from the edge-list argument only, the source list, the
  target list and the edge weights; no later segment writes those three buffers or an argument, so each later
  boundary still holds them. Each call's result is the whole-array function of its entry arrays (the modules
  `Call0` … `Call5`); each stretch between calls is one aggregation step (and a bias vector laid out as a row).
  Composed: the result buffer ends at `Cert.Gcn.forward` of the arguments.
-/
import proofs.«138695_j5523327943291_1_alg».proof.Proof.Gen.KernelIdeal.Frame
import proofs.«138695_j5523327943291_1_alg».proof.Proof.Spec
import proofs.«138695_j5523327943291_1_alg».proof.Proof.LibHostWalk
import proofs.«138695_j5523327943291_1_alg».proof.Proof.Call0
import proofs.«138695_j5523327943291_1_alg».proof.Proof.Call1
import proofs.«138695_j5523327943291_1_alg».proof.Proof.Call2
import proofs.«138695_j5523327943291_1_alg».proof.Proof.Call3
import proofs.«138695_j5523327943291_1_alg».proof.Proof.Call4
import proofs.«138695_j5523327943291_1_alg».proof.Proof.Call5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Cert.HostWalk

variable (m : (ℓ : Loc nD τ sig) → Buf (Elt Ideal) ℓ) (ρ : Dev nD → PrngReg)

/-! ## The values along the run -/

/-- Source list, target list and edge weights of the edge-list argument. -/
abbrev eS (c : Dev nD) : Cert.Gcn.IV Cert.ReferenceIdeal.S1700000 := Cert.Gcn.srcOf (m ((c.tc : Thread nD τ).loc main_arg1))
abbrev eD (c : Dev nD) : Cert.Gcn.IV Cert.ReferenceIdeal.S1700000 := Cert.Gcn.dstOf (m ((c.tc : Thread nD τ).loc main_arg1))
abbrev eN (c : Dev nD) : Cert.Gcn.FV Cert.ReferenceIdeal.S1700000 := Cert.Gcn.edgeNorm (m ((c.tc : Thread nD τ).loc main_arg1))
/-- Layer 1: product, aggregate, hidden activation. -/
abbrev p0 (c : Dev nD) : Cert.Gcn.FV Cert.ReferenceIdeal.S100000x128 := Cert.Product.mm (M := 100000) (K := 128) (N := 128) (m ((c.tc : Thread nD τ).loc main_arg0)) (m ((c.tc : Thread nD τ).loc main_arg2))
abbrev a0 (c : Dev nD) : Cert.Gcn.FV Cert.ReferenceIdeal.S100000x128 := Cert.Gcn.aggregate128 (eS m c) (eD m c) (eN m c) (p0 m c)
abbrev h0 (c : Dev nD) : Cert.Gcn.FV Cert.ReferenceIdeal.S100000x128 := Cert.Layer.hidden (M := 100000) (C := 128) (a0 m c) (m ((c.tc : Thread nD τ).loc main_arg3))
/-- Layer 2. -/
abbrev p1 (c : Dev nD) : Cert.Gcn.FV Cert.ReferenceIdeal.S100000x128 := Cert.Product.mm (M := 100000) (K := 128) (N := 128) (h0 m c) (m ((c.tc : Thread nD τ).loc main_arg4))
abbrev a1 (c : Dev nD) : Cert.Gcn.FV Cert.ReferenceIdeal.S100000x128 := Cert.Gcn.aggregate128 (eS m c) (eD m c) (eN m c) (p1 m c)
abbrev h1 (c : Dev nD) : Cert.Gcn.FV Cert.ReferenceIdeal.S100000x128 := Cert.Layer.hidden (M := 100000) (C := 128) (a1 m c) (m ((c.tc : Thread nD τ).loc main_arg5))
/-- Layer 3: product and aggregate (the bias is added by the last call). -/
abbrev p2 (c : Dev nD) : Cert.Gcn.FV Cert.ReferenceIdeal.S100000x5 := Cert.Product.mm (M := 100000) (K := 128) (N := 5) (h1 m c) (m ((c.tc : Thread nD τ).loc main_arg6))
abbrev a2 (c : Dev nD) : Cert.Gcn.FV Cert.ReferenceIdeal.S100000x5 := Cert.Gcn.aggregate5 (eS m c) (eD m c) (eN m c) (p2 m c)

/-! ## Before the first call: the host's preamble, read through its three stretches -/

theorem W3_arg0 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  walk_back [hostOps0_2, hostOps0_1, hostOps0]
  all_goals rfl

theorem W3_arg2 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  walk_back [hostOps0_2, hostOps0_1, hostOps0]
  all_goals rfl

theorem W3_arg3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  walk_back [hostOps0_2, hostOps0_1, hostOps0]
  all_goals rfl

theorem W3_arg4 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  walk_back [hostOps0_2, hostOps0_1, hostOps0]
  all_goals rfl

theorem W3_arg5 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  walk_back [hostOps0_2, hostOps0_1, hostOps0]
  all_goals rfl

theorem W3_arg6 (c : Dev nD) : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  walk_back [hostOps0_2, hostOps0_1, hostOps0]
  all_goals rfl

theorem W3_arg7 (c : Dev nD) : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  walk_back [hostOps0_2, hostOps0_1, hostOps0]
  all_goals rfl

theorem W3_v5 (c : Dev nD) : W3 m ρ c (Proc.devRef .tc main_v5) = eS m c := by
  show StableHlo.after hostOps0_2 (StableHlo.after hostOps0_1 (StableHlo.after hostOps0 (W0 m ρ c))) (Proc.devRef .tc main_v5) = _
  walk_back [hostOps0_2, hostOps0_1, hostOps0]
  all_goals rfl

theorem W3_v6 (c : Dev nD) : W3 m ρ c (Proc.devRef .tc main_v6) = eD m c := by
  show StableHlo.after hostOps0_2 (StableHlo.after hostOps0_1 (StableHlo.after hostOps0 (W0 m ρ c))) (Proc.devRef .tc main_v6) = _
  walk_back [hostOps0_2, hostOps0_1, hostOps0]
  all_goals rfl

theorem W3_v29 (c : Dev nD) : W3 m ρ c (Proc.devRef .tc main_v29) = eN m c := by
  show StableHlo.after hostOps0_2 (StableHlo.after hostOps0_1 (StableHlo.after hostOps0 (W0 m ρ c))) (Proc.devRef .tc main_v29) = _
  walk_back [hostOps0_2, hostOps0_1, hostOps0]
  all_goals rfl

/-! ## Call 0: the first product -/

theorem W4_v5 (c : Dev nD) : W4 m ρ c (Proc.devRef .tc main_v5) = eS m c :=
  (W4_of_ne m ρ c main_v5 (by decide)).trans (W3_v5 m ρ c)
theorem W4_v6 (c : Dev nD) : W4 m ρ c (Proc.devRef .tc main_v6) = eD m c :=
  (W4_of_ne m ρ c main_v6 (by decide)).trans (W3_v6 m ρ c)
theorem W4_v29 (c : Dev nD) : W4 m ρ c (Proc.devRef .tc main_v29) = eN m c :=
  (W4_of_ne m ρ c main_v29 (by decide)).trans (W3_v29 m ρ c)
theorem W4_arg3 (c : Dev nD) : W4 m ρ c (Proc.devRef .tc main_arg3) = (m ((c.tc : Thread nD τ).loc main_arg3)) :=
  (W4_of_ne m ρ c main_arg3 (by decide)).trans (W3_arg3 m ρ c)
theorem W4_arg4 (c : Dev nD) : W4 m ρ c (Proc.devRef .tc main_arg4) = (m ((c.tc : Thread nD τ).loc main_arg4)) :=
  (W4_of_ne m ρ c main_arg4 (by decide)).trans (W3_arg4 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)

theorem W4_v30 (c : Dev nD) : W4 m ρ c (Proc.devRef .tc main_v30) = p0 m c := by
  refine (W4_arr m ρ c 2).trans ?_
  rw [Cert.KernelIdeal.Call0.result (V3 m ρ) c]
  show Cert.Product.mm (M := 100000) (K := 128) (N := 128) (W3 m ρ c (Proc.devRef .tc main_arg0)) (W3 m ρ c (Proc.devRef .tc main_arg2)) = _
  rw [W3_arg0, W3_arg2]

/-! ## The first aggregation and the first bias row -/

theorem W5_v5 (c : Dev nD) : W5 m ρ c (Proc.devRef .tc main_v5) = eS m c := by
  show StableHlo.after hostOps1 (W4 m ρ c) (Proc.devRef .tc main_v5) = _
  walk_back [hostOps1]
  exact W4_v5 m ρ c
theorem W5_v6 (c : Dev nD) : W5 m ρ c (Proc.devRef .tc main_v6) = eD m c := by
  show StableHlo.after hostOps1 (W4 m ρ c) (Proc.devRef .tc main_v6) = _
  walk_back [hostOps1]
  exact W4_v6 m ρ c
theorem W5_v29 (c : Dev nD) : W5 m ρ c (Proc.devRef .tc main_v29) = eN m c := by
  show StableHlo.after hostOps1 (W4 m ρ c) (Proc.devRef .tc main_v29) = _
  walk_back [hostOps1]
  exact W4_v29 m ρ c
theorem W5_arg4 (c : Dev nD) : W5 m ρ c (Proc.devRef .tc main_arg4) = (m ((c.tc : Thread nD τ).loc main_arg4)) := by
  show StableHlo.after hostOps1 (W4 m ρ c) (Proc.devRef .tc main_arg4) = _
  walk_back [hostOps1]
  exact W4_arg4 m ρ c
theorem W5_arg5 (c : Dev nD) : W5 m ρ c (Proc.devRef .tc main_arg5) = (m ((c.tc : Thread nD τ).loc main_arg5)) := by
  show StableHlo.after hostOps1 (W4 m ρ c) (Proc.devRef .tc main_arg5) = _
  walk_back [hostOps1]
  exact W4_arg5 m ρ c
theorem W5_arg6 (c : Dev nD) : W5 m ρ c (Proc.devRef .tc main_arg6) = (m ((c.tc : Thread nD τ).loc main_arg6)) := by
  show StableHlo.after hostOps1 (W4 m ρ c) (Proc.devRef .tc main_arg6) = _
  walk_back [hostOps1]
  exact W4_arg6 m ρ c
theorem W5_arg7 (c : Dev nD) : W5 m ρ c (Proc.devRef .tc main_arg7) = (m ((c.tc : Thread nD τ).loc main_arg7)) := by
  show StableHlo.after hostOps1 (W4 m ρ c) (Proc.devRef .tc main_arg7) = _
  walk_back [hostOps1]
  exact W4_arg7 m ρ c

theorem W5_v43 (c : Dev nD) : W5 m ρ c (Proc.devRef .tc main_v43) = a0 m c := by
  show StableHlo.after hostOps1 (W4 m ρ c) (Proc.devRef .tc main_v43) = _
  walk_back [hostOps1]
  rw [W4_v5, W4_v6, W4_v29, W4_v30]
  rfl

theorem W5_v44 (c : Dev nD) (q : Fin 128) : W5 m ρ c (Proc.devRef .tc main_v44) (ix2 (0 : Fin 1) q) = (m ((c.tc : Thread nD τ).loc main_arg3)) (ix1 q) := by
  show StableHlo.after hostOps1 (W4 m ρ c) (Proc.devRef .tc main_v44) (ix2 (0 : Fin 1) q) = _
  walk_back [hostOps1]
  rw [W4_arg3]
  exact Cert.Layer.row_of_cast (C := 128) _ _ q

/-! ## Call 1: the first hidden activation -/

theorem W6_v5 (c : Dev nD) : W6 m ρ c (Proc.devRef .tc main_v5) = eS m c :=
  (W6_of_ne m ρ c main_v5 (by decide)).trans (W5_v5 m ρ c)
theorem W6_v6 (c : Dev nD) : W6 m ρ c (Proc.devRef .tc main_v6) = eD m c :=
  (W6_of_ne m ρ c main_v6 (by decide)).trans (W5_v6 m ρ c)
theorem W6_v29 (c : Dev nD) : W6 m ρ c (Proc.devRef .tc main_v29) = eN m c :=
  (W6_of_ne m ρ c main_v29 (by decide)).trans (W5_v29 m ρ c)
theorem W6_arg4 (c : Dev nD) : W6 m ρ c (Proc.devRef .tc main_arg4) = (m ((c.tc : Thread nD τ).loc main_arg4)) :=
  (W6_of_ne m ρ c main_arg4 (by decide)).trans (W5_arg4 m ρ c)
theorem W6_arg5 (c : Dev nD) : W6 m ρ c (Proc.devRef .tc main_arg5) = (m ((c.tc : Thread nD τ).loc main_arg5)) :=
  (W6_of_ne m ρ c main_arg5 (by decide)).trans (W5_arg5 m ρ c)
theorem W6_arg6 (c : Dev nD) : W6 m ρ c (Proc.devRef .tc main_arg6) = (m ((c.tc : Thread nD τ).loc main_arg6)) :=
  (W6_of_ne m ρ c main_arg6 (by decide)).trans (W5_arg6 m ρ c)
theorem W6_arg7 (c : Dev nD) : W6 m ρ c (Proc.devRef .tc main_arg7) = (m ((c.tc : Thread nD τ).loc main_arg7)) :=
  (W6_of_ne m ρ c main_arg7 (by decide)).trans (W5_arg7 m ρ c)

theorem W6_v45 (c : Dev nD) : W6 m ρ c (Proc.devRef .tc main_v45) = h0 m c := by
  refine (W6_arr m ρ c 2).trans ?_
  rw [Cert.KernelIdeal.Call1.result (V5 m ρ) c (m ((c.tc : Thread nD τ).loc main_arg3)) (fun q => W5_v44 m ρ c q)]
  show Cert.Layer.hidden (M := 100000) (C := 128) (W5 m ρ c (Proc.devRef .tc main_v43)) (m ((c.tc : Thread nD τ).loc main_arg3)) = _
  rw [W5_v43]

/-! ## Call 2: the second product -/

theorem W7_v5 (c : Dev nD) : W7 m ρ c (Proc.devRef .tc main_v5) = eS m c :=
  (W7_of_ne m ρ c main_v5 (by decide)).trans (W6_v5 m ρ c)
theorem W7_v6 (c : Dev nD) : W7 m ρ c (Proc.devRef .tc main_v6) = eD m c :=
  (W7_of_ne m ρ c main_v6 (by decide)).trans (W6_v6 m ρ c)
theorem W7_v29 (c : Dev nD) : W7 m ρ c (Proc.devRef .tc main_v29) = eN m c :=
  (W7_of_ne m ρ c main_v29 (by decide)).trans (W6_v29 m ρ c)
theorem W7_arg5 (c : Dev nD) : W7 m ρ c (Proc.devRef .tc main_arg5) = (m ((c.tc : Thread nD τ).loc main_arg5)) :=
  (W7_of_ne m ρ c main_arg5 (by decide)).trans (W6_arg5 m ρ c)
theorem W7_arg6 (c : Dev nD) : W7 m ρ c (Proc.devRef .tc main_arg6) = (m ((c.tc : Thread nD τ).loc main_arg6)) :=
  (W7_of_ne m ρ c main_arg6 (by decide)).trans (W6_arg6 m ρ c)
theorem W7_arg7 (c : Dev nD) : W7 m ρ c (Proc.devRef .tc main_arg7) = (m ((c.tc : Thread nD τ).loc main_arg7)) :=
  (W7_of_ne m ρ c main_arg7 (by decide)).trans (W6_arg7 m ρ c)

theorem W7_v46 (c : Dev nD) : W7 m ρ c (Proc.devRef .tc main_v46) = p1 m c := by
  refine (W7_arr m ρ c 2).trans ?_
  rw [Cert.KernelIdeal.Call2.result (V6 m ρ) c]
  show Cert.Product.mm (M := 100000) (K := 128) (N := 128) (W6 m ρ c (Proc.devRef .tc main_v45)) (W6 m ρ c (Proc.devRef .tc main_arg4)) = _
  rw [W6_v45, W6_arg4]

/-! ## The second aggregation and bias row -/

theorem W8_v5 (c : Dev nD) : W8 m ρ c (Proc.devRef .tc main_v5) = eS m c := by
  show StableHlo.after hostOps3 (W7 m ρ c) (Proc.devRef .tc main_v5) = _
  walk_back [hostOps3]
  exact W7_v5 m ρ c
theorem W8_v6 (c : Dev nD) : W8 m ρ c (Proc.devRef .tc main_v6) = eD m c := by
  show StableHlo.after hostOps3 (W7 m ρ c) (Proc.devRef .tc main_v6) = _
  walk_back [hostOps3]
  exact W7_v6 m ρ c
theorem W8_v29 (c : Dev nD) : W8 m ρ c (Proc.devRef .tc main_v29) = eN m c := by
  show StableHlo.after hostOps3 (W7 m ρ c) (Proc.devRef .tc main_v29) = _
  walk_back [hostOps3]
  exact W7_v29 m ρ c
theorem W8_arg6 (c : Dev nD) : W8 m ρ c (Proc.devRef .tc main_arg6) = (m ((c.tc : Thread nD τ).loc main_arg6)) := by
  show StableHlo.after hostOps3 (W7 m ρ c) (Proc.devRef .tc main_arg6) = _
  walk_back [hostOps3]
  exact W7_arg6 m ρ c
theorem W8_arg7 (c : Dev nD) : W8 m ρ c (Proc.devRef .tc main_arg7) = (m ((c.tc : Thread nD τ).loc main_arg7)) := by
  show StableHlo.after hostOps3 (W7 m ρ c) (Proc.devRef .tc main_arg7) = _
  walk_back [hostOps3]
  exact W7_arg7 m ρ c

theorem W8_v59 (c : Dev nD) : W8 m ρ c (Proc.devRef .tc main_v59) = a1 m c := by
  show StableHlo.after hostOps3 (W7 m ρ c) (Proc.devRef .tc main_v59) = _
  walk_back [hostOps3]
  rw [W7_v5, W7_v6, W7_v29, W7_v46]
  rfl

theorem W8_v60 (c : Dev nD) (q : Fin 128) : W8 m ρ c (Proc.devRef .tc main_v60) (ix2 (0 : Fin 1) q) = (m ((c.tc : Thread nD τ).loc main_arg5)) (ix1 q) := by
  show StableHlo.after hostOps3 (W7 m ρ c) (Proc.devRef .tc main_v60) (ix2 (0 : Fin 1) q) = _
  walk_back [hostOps3]
  rw [W7_arg5]
  exact Cert.Layer.row_of_cast (C := 128) _ _ q

/-! ## Call 3: the second hidden activation -/

theorem W9_v5 (c : Dev nD) : W9 m ρ c (Proc.devRef .tc main_v5) = eS m c :=
  (W9_of_ne m ρ c main_v5 (by decide)).trans (W8_v5 m ρ c)
theorem W9_v6 (c : Dev nD) : W9 m ρ c (Proc.devRef .tc main_v6) = eD m c :=
  (W9_of_ne m ρ c main_v6 (by decide)).trans (W8_v6 m ρ c)
theorem W9_v29 (c : Dev nD) : W9 m ρ c (Proc.devRef .tc main_v29) = eN m c :=
  (W9_of_ne m ρ c main_v29 (by decide)).trans (W8_v29 m ρ c)
theorem W9_arg6 (c : Dev nD) : W9 m ρ c (Proc.devRef .tc main_arg6) = (m ((c.tc : Thread nD τ).loc main_arg6)) :=
  (W9_of_ne m ρ c main_arg6 (by decide)).trans (W8_arg6 m ρ c)
theorem W9_arg7 (c : Dev nD) : W9 m ρ c (Proc.devRef .tc main_arg7) = (m ((c.tc : Thread nD τ).loc main_arg7)) :=
  (W9_of_ne m ρ c main_arg7 (by decide)).trans (W8_arg7 m ρ c)

theorem W9_v61 (c : Dev nD) : W9 m ρ c (Proc.devRef .tc main_v61) = h1 m c := by
  refine (W9_arr m ρ c 2).trans ?_
  rw [Cert.KernelIdeal.Call3.result (V8 m ρ) c (m ((c.tc : Thread nD τ).loc main_arg5)) (fun q => W8_v60 m ρ c q)]
  show Cert.Layer.hidden (M := 100000) (C := 128) (W8 m ρ c (Proc.devRef .tc main_v59)) (m ((c.tc : Thread nD τ).loc main_arg5)) = _
  rw [W8_v59]

/-! ## Call 4: the third product -/

theorem W10_v5 (c : Dev nD) : W10 m ρ c (Proc.devRef .tc main_v5) = eS m c :=
  (W10_of_ne m ρ c main_v5 (by decide)).trans (W9_v5 m ρ c)
theorem W10_v6 (c : Dev nD) : W10 m ρ c (Proc.devRef .tc main_v6) = eD m c :=
  (W10_of_ne m ρ c main_v6 (by decide)).trans (W9_v6 m ρ c)
theorem W10_v29 (c : Dev nD) : W10 m ρ c (Proc.devRef .tc main_v29) = eN m c :=
  (W10_of_ne m ρ c main_v29 (by decide)).trans (W9_v29 m ρ c)
theorem W10_arg7 (c : Dev nD) : W10 m ρ c (Proc.devRef .tc main_arg7) = (m ((c.tc : Thread nD τ).loc main_arg7)) :=
  (W10_of_ne m ρ c main_arg7 (by decide)).trans (W9_arg7 m ρ c)

theorem W10_v62 (c : Dev nD) : W10 m ρ c (Proc.devRef .tc main_v62) = p2 m c := by
  refine (W10_arr m ρ c 2).trans ?_
  rw [Cert.KernelIdeal.Call4.result (V9 m ρ) c]
  show Cert.Product.mm (M := 100000) (K := 128) (N := 5) (W9 m ρ c (Proc.devRef .tc main_v61)) (W9 m ρ c (Proc.devRef .tc main_arg6)) = _
  rw [W9_v61, W9_arg6]

/-! ## The third aggregation and bias row -/

theorem W11_v75 (c : Dev nD) : W11 m ρ c (Proc.devRef .tc main_v75) = a2 m c := by
  show StableHlo.after hostOps5 (W10 m ρ c) (Proc.devRef .tc main_v75) = _
  walk_back [hostOps5]
  rw [W10_v5, W10_v6, W10_v29, W10_v62]
  rfl

theorem W11_v76 (c : Dev nD) (q : Fin 5) : W11 m ρ c (Proc.devRef .tc main_v76) (ix2 (0 : Fin 1) q) = (m ((c.tc : Thread nD τ).loc main_arg7)) (ix1 q) := by
  show StableHlo.after hostOps5 (W10 m ρ c) (Proc.devRef .tc main_v76) (ix2 (0 : Fin 1) q) = _
  walk_back [hostOps5]
  rw [W10_arg7]
  exact Cert.Layer.row_of_cast (C := 5) _ _ q

/-! ## Call 5: the last bias, and the network -/

theorem W12_v77 (c : Dev nD) : W12 m ρ c (Proc.devRef .tc main_v77) = Cert.Layer.biased (M := 100000) (C := 5) (a2 m c) (m ((c.tc : Thread nD τ).loc main_arg7)) := by
  refine (W12_arr m ρ c 2).trans ?_
  rw [Cert.KernelIdeal.Call5.result (V11 m ρ) c (m ((c.tc : Thread nD τ).loc main_arg7)) (fun q => W11_v76 m ρ c q)]
  show Cert.Layer.biased (M := 100000) (C := 5) (W11 m ρ c (Proc.devRef .tc main_v75)) (m ((c.tc : Thread nD τ).loc main_arg7)) = _
  rw [W11_v75]

/-- The result buffer at the last boundary is the network of the arguments. -/
theorem result (c : Dev nD) :
    W12 m ρ c (Proc.devRef .tc main_v77)
      = Cert.Gcn.forward (Cert.Gcn.srcOf (m ((c.tc : Thread nD τ).loc main_arg1))) (Cert.Gcn.dstOf (m ((c.tc : Thread nD τ).loc main_arg1))) (Cert.Gcn.edgeNorm (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  W12_v77 m ρ c

end Cert.KernelIdeal.Chain

end
-- ==== Proof.lean ====
/-
  A three-layer graph convolution over 100000 nodes and 1600000 edges (plus one self loop per node): the kernel
  against its reference, equal on the extended reals.

  Both programs compute, per layer, aggregate(x · W) + b, where aggregate gathers the rows of x · W at the edges'
  sources, scales row e by the edge weight d[src e] · d[dst e] (d the rsqrt of the degree where it is positive, zero
  elsewhere) and scatter-adds the rows at the edges' targets; the first two layers are followed by a maximum with
  zero. The kernel computes the edge weights once and runs the dense parts — the product x · W and the bias (and
  maximum) — as pipelined calls over ten blocks of 10000 rows; the reference recomputes the edge weights per layer
  and does everything with host operations. Nothing is reassociated: the gathers and scatter-adds are the same
  operations of equal operands on both sides and are never opened. What is proved is that each pipelined call
  leaves its output array at the whole-array function of its inputs (a row block of a product depends on that row
  block of the left operand; the bias and maximum are entrywise), that a product whose operands are cast to a
  narrower float format into a zero accumulator is the host's dot_general on the extended reals (casts are the
  identity there), and that the buffers computed before the first call are still there when later segments read
  them. No law used needs finiteness, so the precondition is never opened.

  The three frames: the kernel's two are the generated frame certificates; the reference's is its run with the
  result dropped. The idealization rewrote nothing, so `preserves` is trivial.
-/
import proofs.«138695_j5523327943291_1_alg».proof.Defs
import proofs.«138695_j5523327943291_1_alg».proof.Proof.Gen.Kernel
import proofs.«138695_j5523327943291_1_alg».proof.Proof.Gen.Kernel.Skeleton
import proofs.«138695_j5523327943291_1_alg».proof.Proof.Gen.Kernel.Launch
import proofs.«138695_j5523327943291_1_alg».proof.Proof.Gen.Kernel.Points
import proofs.«138695_j5523327943291_1_alg».proof.Proof.Gen.Kernel.Frame
import proofs.«138695_j5523327943291_1_alg».proof.Proof.Gen.KernelIdeal
import proofs.«138695_j5523327943291_1_alg».proof.Proof.Gen.KernelIdeal.Skeleton
import proofs.«138695_j5523327943291_1_alg».proof.Proof.Gen.KernelIdeal.Launch
import proofs.«138695_j5523327943291_1_alg».proof.Proof.Gen.KernelIdeal.Points
import proofs.«138695_j5523327943291_1_alg».proof.Proof.Gen.KernelIdeal.Frame
import proofs.«138695_j5523327943291_1_alg».proof.Proof.Gen.ReferenceIdeal
import proofs.«138695_j5523327943291_1_alg».proof.Proof.Gen.Pre_finite_inputs
import proofs.«138695_j5523327943291_1_alg».proof.Proof.RefRunPatched
import proofs.«138695_j5523327943291_1_alg».proof.Proof.RefValue
import proofs.«138695_j5523327943291_1_alg».proof.Proof.KernelRun
import proofs.«138695_j5523327943291_1_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.ValueP.run (F := Ideal) m ρ)

/-- Run from memories that agree on the arguments, both programs end with the result buffer at the network
    `Cert.Gcn.forward` of the (kernel's) argument arrays. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Chain.result m ρ c), (h c).2⟩)
      (Cert.KernelIdeal.Run.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
